-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S600x10000 : Shape := ⟨2, ![600, 10000]⟩
abbrev S600x128 : Shape := ⟨2, ![600, 128]⟩

abbrev nBuf : Space → Nat
  | .hbm => 4
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S600x10000, .f32⟩
  | .local _ .vmem, ⟨3, _⟩ => ⟨S600x10000, .f32⟩
  | .local _ .vmem, ⟨4, _⟩ => ⟨S600x128, .f32⟩
  | .local _ .vmem, ⟨5, _⟩ => ⟨S600x128, .f32⟩
  | .local _ .vmem, ⟨6, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S600x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S600x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S600x10000_S600x10000_0_0 : ∀ a, (![0, 0] : Fin 2 → Nat) a + S600x10000.size a ≤ S600x10000.size a
  h_S600x10000 : 0 < S600x10000.numel
  inb_S600x128_S600x128_0_0 : ∀ a, (![0, 0] : Fin 2 → Nat) a + S600x128.size a ≤ S600x128.size a
  h_S600x128 : 0 < S600x128.numel
  dot_S10000x128_S128x128_S10000x128_1_0_0_1_n_n_wf : DotDims.WF S10000x128 S128x128 S10000x128 [1] [0] [0] [1] [] []
  dot_S600x10000_S10000x128_S600x128_1_0_0_1_n_n_wf : DotDims.WF S600x10000 S10000x128 S600x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S600x10000.size a < S10000x10000.size a
  hwx0_2 : ∀ i : grid0.Coords, EltTy.bits .f32 = 32 ∨ (Rect.unit (s := S10000x10000) (fun a => cc0_transform_2 i a * S600x10000.size a) (fun a => (Pipeline.Clip.of (cc0_transform_2 i a) (S600x10000.size a) (S10000x10000.size a)).extent (S600x10000.size a)) fun a => Pipeline.Clip.inb (Pipeline.Clip.ok_of (hstart0_2 i a))).WholeWords (EltTy.packing .f32)
  hwxs0_2 : ∀ i : grid0.Coords, EltTy.bits .f32 = 32 ∨ (Rect.unit (s := S600x10000) (fun _ => 0) (fun a => (Pipeline.Clip.of (cc0_transform_2 i a) (S600x10000.size a) (S10000x10000.size a)).extent (S600x10000.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S600x128.size a < S10000x128.size a
  hwx0_3 : ∀ i : grid0.Coords, EltTy.bits .f32 = 32 ∨ (Rect.unit (s := S10000x128) (fun a => cc0_transform_3 i a * S600x128.size a) (fun a => (Pipeline.Clip.of (cc0_transform_3 i a) (S600x128.size a) (S10000x128.size a)).extent (S600x128.size a)) fun a => Pipeline.Clip.inb (Pipeline.Clip.ok_of (hstart0_3 i a))).WholeWords (EltTy.packing .f32)
  hwxs0_3 : ∀ i : grid0.Coords, EltTy.bits .f32 = 32 ∨ (Rect.unit (s := S600x128) (fun _ => 0) (fun a => (Pipeline.Clip.of (cc0_transform_3 i a) (S600x128.size a) (S10000x128.size a)).extent (S600x128.size a)) fun a => (Nat.zero_add _).trans_le (Pipeline.Clip.extent_le (Pipeline.Clip.ok_of (hstart0_3 i a)))).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S600x10000_S10000x128_S600x128_1_0_0_1_n_n : DotDims S600x10000 S10000x128 S600x128 where
  lhsContracting := [1]
  rhsContracting := [0]
  lhsNonContracting := [0]
  rhsNonContracting := [1]
  lhsBatch := []
  rhsBatch := []
  wf := dot_S600x10000_S10000x128_S600x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg1) S600x10000.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v0) S600x128.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩

abbrev nBuf : Space → Nat
  | .hbm => 5
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelBody.lean ====
/-
  The kernel body, run once on whole buffers.

  The body has one branch, on the grid coordinate: at the first point it multiplies the feature block by the weight
  block and stores the product in its scratch buffer; at every point it multiplies the staged rows of the propagation
  matrix by the scratch and stores the product in the result's staging buffer. Both stores cover their buffers, so
  each buffer afterwards holds exactly the stored product, and every load reads a buffer whole. The two statements
  below say this for any contents of the five buffers and any float instance: nothing here depends on what the numbers
  are, only on which buffer is read and which is written.
-/
import proofs.«178069_g30322469110220_cont_9to1_1671_10_alg».proof.Proof.Gen.Kernel.Frame
import proofs.«178069_g30322469110220_cont_9to1_1671_10_alg».proof.Proof.Gen.Kernel.Skeleton
import Idealize.ShloMosaic.Lib.Pipeline.Value
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's one branch condition, as printed: the grid coordinate compared with zero. -/
abbrev first (i : grid0.Coords) : Prop :=
  (Scalar.cmpi .ne (Scalar.extui (Scalar.cmpi .eq (BitVec.ofNat 32 (i 0).val) 0#32)) 0#32) = 1#1

/-- It holds at the first grid point and at no other. -/
theorem first_iff : ∀ t : Fin cfg0.N, first (grid0.coords t) ↔ t.val = 0 :=
  (by decide +kernel : ∀ t : Fin grid0.N, first (grid0.coords t) ↔ t.val = 0)

theorem zeros : (![0, 0] : Fin 2 → Nat) = fun _ => 0 := funext fun a => by fin_cases a <;> rfl

/-- A buffer stored whole reads back as what was stored, whatever it held. -/
theorem read_stored_whole {sg : RefSig} {κ : Kind} {sp : Space} {s : Shape} {e : EltTy} {Val : EltTy → Type} [∀ e, Nonempty (Val e)]
    (v : View sg κ sp s e) (f : v.ty.Contents Val) {off : Fin s.rank → Nat} (h : off = fun _ => 0)
    (inb : ∀ a, off a + s.size a ≤ s.size a) (w : s.Idx → Val e) :
    v.read Val (v.writes Val f [(⟨Rect.unit off s.size inb, w⟩ : View.Piece Val s e)]) = w := by
  rw [View.read_writes_eq_canon _ _ _ (fun y => ⟨_, List.mem_singleton_self _, View.mem_set_unit_zero h inb y⟩), View.canon_unit_zero h]

/-- The body at a point after the first, on whole buffers holding X0 (the feature block), X1 (the weight block),
    X2 (the propagation rows), anything (the result's buffer) and S (the scratch): it stores the product of the
    propagation rows with the scratch into the result's buffer and leaves everything else as it was. -/
theorem body_later (c : Dev nD) (E : Set ℕ) (i : grid0.Coords) (hc : ¬ first i)
    (a1 : Memref sig .tc .vmem S10000x128 .f32) (h1 : a1.IsWhole) (a2 : Memref sig .tc .vmem S128x128 .f32) (h2 : a2.IsWhole)
    (a3 : Memref sig .tc .vmem S600x10000 .f32) (h3 : a3.IsWhole) (a4 : Memref sig .tc .vmem S600x128 .f32) (h4 : a4.IsWhole)
    (a5 : Memref sig .tc .vmem S10000x128 .f32) (h5 : a5.IsWhole)
    (X0 : Vec F S10000x128 .f32) (X1 : Vec F S128x128 .f32) (X2 : Vec F S600x10000 .f32) (X3 : Vec F S600x128 .f32) (S : Vec F S10000x128 .f32)
    (K : PUnit → sProp 𝕄) :
    iprop((owns (c : Thread nD τ) a1 fullShare X0 ∗ owns (c : Thread nD τ) a2 fullShare X1 ∗ owns (c : Thread nD τ) a3 fullShare X2
            ∗ owns (c : Thread nD τ) a4 fullShare X3 ∗ owns (c : Thread nD τ) a5 fullShare S)
          ∗ (iprop(owns (c : Thread nD τ) a1 fullShare X0 ∗ owns (c : Thread nD τ) a2 fullShare X1 ∗ owns (c : Thread nD τ) a3 fullShare X2
            ∗ owns (c : Thread nD τ) a4 fullShare (k0_pay2 X2 S) ∗ owns (c : Thread nD τ) a5 fullShare S) -∗ K ⟨⟩))
      ⊢ wp frame (wpE (defs₀ (F := F)) Variants.none c none) E (cc0__gcn_kernel i a1 h1 a2 h2 a3 h3 a4 h4 a5 h5) K := by
  simp only [cc0__gcn_kernel_eq_skeleton]; unfold cc0__gcn_kernel_skel
  unfold owns
  iintro ⟨⟨⟨%f0, %hf0, H0⟩, ⟨%f1, %hf1, H1⟩, ⟨%f2, %hf2, H2⟩, ⟨%f3, %hf3, H3⟩, ⟨%f5, %hf5, H5⟩⟩, Hk⟩
  obtain rfl := h1.eq_unread hf0; obtain rfl := h2.eq_unread hf1; obtain rfl := h3.eq_unread hf2
  obtain rfl := h4.eq_unread hf3; obtain rfl := h5.eq_unread hf5
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    refine (read_stored_whole _ _ zeros _ _).trans ?_
    rw [View.readAt_eq_ld, View.readAt_eq_ld, hf2, hf5, View.ld_unit_zero zeros, View.ld_unit_zero zeros]
  · iexists _; isplitr; · ipureintro; exact hf5
    iexact H5

/-- The body at the first point, the scratch holding anything: it stores the product of the feature block with
    the weight block into the scratch, then the product of the propagation rows with that into the result's
    buffer. -/
theorem body_first (c : Dev nD) (E : Set ℕ) (i : grid0.Coords) (hc : first i)
    (a1 : Memref sig .tc .vmem S10000x128 .f32) (h1 : a1.IsWhole) (a2 : Memref sig .tc .vmem S128x128 .f32) (h2 : a2.IsWhole)
    (a3 : Memref sig .tc .vmem S600x10000 .f32) (h3 : a3.IsWhole) (a4 : Memref sig .tc .vmem S600x128 .f32) (h4 : a4.IsWhole)
    (a5 : Memref sig .tc .vmem S10000x128 .f32) (h5 : a5.IsWhole)
    (X0 : Vec F S10000x128 .f32) (X1 : Vec F S128x128 .f32) (X2 : Vec F S600x10000 .f32) (X3 : Vec F S600x128 .f32) (S : Vec F S10000x128 .f32)
    (K : PUnit → sProp 𝕄) :
    iprop((owns (c : Thread nD τ) a1 fullShare X0 ∗ owns (c : Thread nD τ) a2 fullShare X1 ∗ owns (c : Thread nD τ) a3 fullShare X2
            ∗ owns (c : Thread nD τ) a4 fullShare X3 ∗ owns (c : Thread nD τ) a5 fullShare S)
          ∗ (iprop(owns (c : Thread nD τ) a1 fullShare X0 ∗ owns (c : Thread nD τ) a2 fullShare X1 ∗ owns (c : Thread nD τ) a3 fullShare X2
            ∗ owns (c : Thread nD τ) a4 fullShare (k0_pay2 X2 (k0_pay1 X0 X1)) ∗ owns (c : Thread nD τ) a5 fullShare (k0_pay1 X0 X1)) -∗ K ⟨⟩))
      ⊢ wp frame (wpE (defs₀ (F := F)) Variants.none c none) E (cc0__gcn_kernel i a1 h1 a2 h2 a3 h3 a4 h4 a5 h5) K := by
  simp only [cc0__gcn_kernel_eq_skeleton]; unfold cc0__gcn_kernel_skel
  unfold owns
  iintro ⟨⟨⟨%f0, %hf0, H0⟩, ⟨%f1, %hf1, H1⟩, ⟨%f2, %hf2, H2⟩, ⟨%f3, %hf3, H3⟩, ⟨%f5, %hf5, H5⟩⟩, Hk⟩
  obtain rfl := h1.eq_unread hf0; obtain rfl := h2.eq_unread hf1; obtain rfl := h3.eq_unread hf2
  obtain rfl := h4.eq_unread hf3; obtain rfl := h5.eq_unread hf5
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    sl_unfold_words
    refine (read_stored_whole _ _ zeros _ _).trans ?_
    rw [View.readCov_unit_zero _ zeros, View.readAt_eq_ld, View.readAt_eq_ld, View.readAt_eq_ld, hf0, hf1, hf2,
      View.ld_unit_zero zeros, View.ld_unit_zero zeros, View.ld_unit_zero zeros]
  · iexists _; isplitr
    swap; · iexact H5
    ipureintro
    sl_unfold_words
    refine (read_stored_whole _ _ zeros _ _).trans ?_
    rw [View.readAt_eq_ld, View.readAt_eq_ld, hf0, hf1, View.ld_unit_zero zeros, View.ld_unit_zero zeros]

end Cert.Kernel.Body

end
-- ==== Proof.KernelPoint.lean ====
/-
  The pipeline's proof data and the frame.

  The kernel runs over seventeen grid points. The feature matrix and the weight matrix are staged once and stay
  resident; at each point a block of six hundred rows of the propagation matrix is staged and the body writes the
  matching six hundred rows of the result, which are then written back. Ten thousand is not a multiple of six hundred:
  the last block overhangs the matrix by two hundred rows, its fetch fills only the four hundred rows inside, and
  only those rows of the result are written back. The scratch buffer is filled at the first point with the product of
  the features and the weights and is read, unchanged, at every later point; that is the one fact the invariant
  carries from point to point.

  This module states what each staging buffer holds after the body at each point, proves the body's obligation at a
  point from the two runs of the body, and concludes the frame: termination without fault, the argument arrays
  unchanged. For the frame the result window's contents are left unnamed, so the statement holds at any float
  instance.
-/
import proofs.«178069_g30322469110220_cont_9to1_1671_10_alg».proof.Proof.Gen.Kernel.Frame
import proofs.«178069_g30322469110220_cont_9to1_1671_10_alg».proof.Proof.Gen.Kernel.Skeleton
import proofs.«178069_g30322469110220_cont_9to1_1671_10_alg».proof.Proof.KernelBody
import Idealize.ShloMosaic.Lib.Pipeline.Value
set_option maxRecDepth 16384

noncomputable section

namespace Cert.Kernel.Point

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- The scratch operand: a whole buffer of the kernel's own. -/
abbrev scM : Memref sig .tc .vmem S10000x128 .f32 := Memref.whole cc0_scratch0

/-- Each window's current staging buffer at point `t`, and that it is a whole buffer. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S600x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S600x128 .f32 := win0_3.stage (cfg0.slots t 3)
abbrev hs3 (t : Fin cfg0.N) : (ms3 t).IsWhole := hstage0_3 ((cfg0.slots t 3).cast nbuf0_3)

/-- The first grid point. -/
abbrev t0 : Fin cfg0.N := ⟨0, by decide⟩

/-- The feature matrix times the weight matrix, as the body computes it at the first point: what the scratch
    holds from then on. -/
def supp (c : Dev nD) : Vec F S10000x128 .f32 := k0_pay1 (iblk m c 0 t0) (iblk m c 1 t0)

/-- The rows of the propagation matrix staged at point `t`: the block's rows that lie inside the matrix, and `d` on
    the rows past its end (the last block overhangs the matrix; no other does). -/
def prows (c : Dev nD) (t : Fin cfg0.N) (d : S600x10000.Idx → Elt F .f32) : Vec F S600x10000 .f32 :=
  win0_2.fill (grid0.coords t) d (iblk m c 2 t)

/-- The result rows the body computes at point `t` from those: their product with the scratch. -/
def orows (c : Dev nD) (t : Fin cfg0.N) (d : S600x10000.Idx → Elt F .f32) : Vec F S600x128 .f32 :=
  k0_pay2 (prows m c t d) (supp m c)

/-- A filler for the rows nothing names: the zero word. -/
def zfill : S600x10000.Idx → Elt F .f32 := fun _ => Scalar.ofBits .f32 0#32

/-- The launch's invariant with the scratch spelt as a buffer owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The invariant before position `n`: before the first point the scratch holds anything; afterwards it holds the
    product of the features with the weights. -/
def PhiS (c : Dev nD) : ℕ → sProp 𝕄
  | 0 => Pipeline.ΦA spec0 c
  | _ + 1 => iprop(iprop(owns (c : Thread nD τ) scM fullShare (supp m c)) ∗ (∃ r, prngReg c r))

/-- The proof data of the pipeline on core `c`: the arrays as the region finds them; after the body at point `t` the
    two resident inputs' buffers at their blocks, the propagation rows' buffer at the staged rows and the result's
    at their product with the scratch (both filled out with zeros past the matrix's end: those rows are never
    written back); the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => prows m c t zfill
    | ⟨3, _⟩ => orows m c t zfill
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = prows m c t zfill := by dsimp only [dats]
theorem after3 (c : Dev nD) (t : Fin cfg0.N) : (dats m 0 c).after 3 t = orows m c t zfill := by dsimp only [dats]

/-- The two resident inputs are found at their blocks at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
/-- The propagation rows are fetched at every point: the buffer holds the staged rows over whatever it held. -/
theorem before2 (c : Dev nD) (t : Fin cfg0.N) (d) : (dats m 0 c).before 2 t d = prows m c t d := by
  rw [(dats m 0 c).before_fetched 2 t (fetch0_2 t)]
  unfold Dat.fetched Dat.blockOf prows iblk; rw [A_eq]
/-- The result's buffer was written back at the point before (or this is the first point): it holds anything. -/
theorem before3 (c : Dev nD) (t : Fin cfg0.N) (d) : (dats m 0 c).before 3 t d = d :=
  (dats m 0 c).before_out_reset 3 rfl t
    (by by_cases h : t.val = 0
        · exact .inl h
        · exact .inr ⟨h, flush0_3 _⟩) d

theorem PhiS_succ (c : Dev nD) (n : ℕ) :
    PhiS m c (n + 1) = iprop(iprop(owns (c : Thread nD τ) scM fullShare (supp m c)) ∗ (∃ r, prngReg c r)) := rfl

/-! ## The body at a point -/

/-- The body at point `t`, the two resident inputs' buffers at their blocks, the propagation rows' buffer at the
    staged rows over `d2`, the result's buffer at anything: the buffers are handed back with the result's at the
    product of those staged rows with the scratch, and the invariant moves on one position. At the first point the
    scratch is filled; at a later one it is read as the point before left it. -/
theorem sound_point (c : Dev nD) (t : Fin cfg0.N) (d2 : S600x10000.Idx → Elt F .f32) (X3 : S600x128.Idx → Elt F .f32)
    (K : PUnit → sProp 𝕄) :
    iprop((PhiS m c t.val ∗ owns (c : Thread nD τ) (ms0 t) fullShare (iblk m c 0 t) ∗ owns (c : Thread nD τ) (ms1 t) fullShare (iblk m c 1 t)
            ∗ owns (c : Thread nD τ) (ms2 t) fullShare (prows m c t d2) ∗ owns (c : Thread nD τ) (ms3 t) fullShare X3)
          ∗ (iprop(PhiS m c (t.val + 1) ∗ owns (c : Thread nD τ) (ms0 t) fullShare (iblk m c 0 t) ∗ owns (c : Thread nD τ) (ms1 t) fullShare (iblk m c 1 t)
            ∗ owns (c : Thread nD τ) (ms2 t) fullShare (prows m c t d2) ∗ owns (c : Thread nD τ) (ms3 t) fullShare (orows m c t d2)) -∗ K ⟨⟩))
      ⊢ wp frame (wpE (defs₀ (F := F)) Variants.none c none) Set.univ (bodyAt0 t) K := by
  rw [PhiS_succ]
  by_cases hz : t.val = 0
  · obtain rfl : t = t0 := Fin.ext hz
    rw [show PhiS m c t0.val = Pipeline.ΦA spec0 c from rfl, PhiA_eq]
    iintro ⟨⟨⟨⟨%dS, HS⟩, Hg⟩, H0, H1, H2, H3⟩, Hk⟩
    iapply (body_first c Set.univ (grid0.coords t0) ((first_iff t0).mpr rfl) (ms0 t0) (hs0 t0) (ms1 t0) (hs1 t0)
      (ms2 t0) (hs2 t0) (ms3 t0) (hs3 t0) scM (Memref.isWhole_whole _)
      (iblk m c 0 t0) (iblk m c 1 t0) (prows m c t0 d2) X3 dS K)
    isplitl [H0 H1 H2 H3 HS]
    · isplitl [H0]; · iexact H0
      isplitl [H1]; · iexact H1
      isplitl [H2]; · iexact H2
      isplitl [H3]; · iexact H3
      iexact HS
    iintro ⟨H0, H1, H2, H3, HS⟩
    iapply Hk
    isplitl [HS Hg]
    · isplitl [HS]; · iexact HS
      iexact Hg
    isplitl [H0]; · iexact H0
    isplitl [H1]; · iexact H1
    isplitl [H2]; · iexact H2
    iexact H3
  · obtain ⟨k, hk⟩ : ∃ k, t.val = k + 1 := Nat.exists_eq_succ_of_ne_zero hz
    rw [show PhiS m c t.val = iprop(iprop(owns (c : Thread nD τ) scM fullShare (supp m c)) ∗ (∃ r, prngReg c r)) from by rw [hk]; rfl]
    iintro ⟨⟨⟨HS, Hg⟩, H0, H1, H2, H3⟩, Hk⟩
    iapply (body_later c Set.univ (grid0.coords t) (fun h => hz ((first_iff t).mp h)) (ms0 t) (hs0 t) (ms1 t) (hs1 t)
      (ms2 t) (hs2 t) (ms3 t) (hs3 t) scM (Memref.isWhole_whole _)
      (iblk m c 0 t) (iblk m c 1 t) (prows m c t d2) X3 (supp m c) K)
    isplitl [H0 H1 H2 H3 HS]
    · isplitl [H0]; · iexact H0
      isplitl [H1]; · iexact H1
      isplitl [H2]; · iexact H2
      isplitl [H3]; · iexact H3
      iexact HS
    iintro ⟨H0, H1, H2, H3, HS⟩
    iapply Hk
    isplitl [HS Hg]
    · isplitl [HS]; · iexact HS
      iexact Hg
    isplitl [H0]; · iexact H0
    isplitl [H1]; · iexact H1
    isplitl [H2]; · iexact H2
    iexact H3

/-- Handing the propagation rows' buffer back: whatever filled it out past the matrix's end, on the rows inside the
    matrix it holds the staged rows. -/
theorem prows_refill (c : Dev nD) (t : Fin cfg0.N) (d : S600x10000.Idx → Elt F .f32) :
    win0_2.fill (grid0.coords t) d (win0_2.cut (grid0.coords t) (prows m c t zfill)) = prows m c t d := by
  unfold prows; rw [Window.cut_fill]

/-! ## The frame: the result window's contents left unnamed -/

/-- For the frame nothing of what the body leaves in the result's buffer is needed: the window is forgotten. -/
def forgets : Fin 4 → Bool := fun | 0 => false | 1 => false | 2 => false | 3 => true | ⟨_ + 4, h⟩ => absurd h (Nat.not_lt.2 (Nat.le_add_left _ _))

/-- What the body is called with at point `t`, the windows one by one, -/
def preF (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ X, owns (c : Thread nD τ) (ms3 t) fullShare X))

/-- and what it returns. -/
def postF (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ (∃ d, owns (c : Thread nD τ) (ms2 t) fullShare (win0_2.fill (grid0.coords t) d (win0_2.cut (grid0.coords t) ((dats m 0 c).after 2 t))))
    ∗ (∃ X, owns (c : Thread nD τ) (ms3 t) fullShare X))

theorem sound_forget (c : Dev nD) (t : Fin cfg0.N) :
    preF m c t ⊢ wp frame (wpE (defs₀ (F := F)) Variants.none c none) Set.univ (bodyAt0 t) (fun _ => postF m c t) := by
  unfold preF postF
  simp only [before0, before1, before2, after0, after1, after2]
  rw [show (dats m 0 c).owesAt () t.succ = (dats m 0 c).owesAt () t.castSucc from rfl,
    show (dats m 0 c).Φ t.succ = PhiS m c (t.val + 1) from rfl, show (dats m 0 c).Φ t.castSucc = PhiS m c t.val from rfl]
  iintro ⟨HΦ, Ho, ⟨%d0, H0⟩, ⟨%d1, H1⟩, ⟨%d2, H2⟩, ⟨%X3, H3⟩⟩
  iapply (sound_point m c t d2 X3 _)
  isplitl [HΦ H0 H1 H2 H3]
  · isplitl [HΦ]; · iexact HΦ
    isplitl [H0]; · iexact H0
    isplitl [H1]; · iexact H1
    isplitl [H2]; · iexact H2
    iexact H3
  iintro ⟨HΦ, H0, H1, H2, H3⟩
  isplitl [HΦ]; · iexact HΦ
  isplitl [Ho]; · iexact Ho
  isplitl [H0]; · iexact H0
  isplitl [H1]; · iexact H1
  isplitl [H2]
  · iexists d2; rw [prows_refill]; iexact H2
  iexists _; iexact H3

/-- The library's body obligation with the result window forgotten, at every point. -/
theorem obligation_forget (c : Dev nD) :
    BodyObligationLoose (dats (F := F) m 0 c) (defs₀ (F := F)) Variants.none () Set.univ forgets := fun t => by
  rw [bigSep_W0, bigSep_W0]
  exact sound_forget m c t

/-- What the launch hands the region is the invariant before the first point. -/
theorem hin (c : Dev nD) : Pipeline.ΦA spec0 c ⊢ (dats m 0 c).Φ 0 := Idealize.SL.BI.Entails.refl _

/-- After the last point the invariant gives the launch's back: what the scratch holds is forgotten. -/
theorem hout (c : Dev nD) : (dats m 0 c).Φ (Fin.last cfg0.N) ⊢ Pipeline.ΦA spec0 c := by
  rw [show (dats m 0 c).Φ (Fin.last cfg0.N) = iprop(iprop(owns (c : Thread nD τ) scM fullShare (supp m c)) ∗ (∃ r, prngReg c r)) from rfl, PhiA_eq]
  iintro ⟨HS, Hg⟩
  isplitl [HS]
  · iexists _; iexact HS
  iexact Hg

set_option backward.isDefEq.respectTransparency.types false in
/-- From any memory with zero counters every weakly fair execution of the program terminates, faulting nowhere, with
    every input array as it was (nothing is stated of the result array here). -/
theorem run_forget : θ_run defs (onTc (τ := τ) (main (F := F))) (s₀ m ρ)
    (Pipeline.RDat.FramePost (cfgs 0) (fun c => (dats m 0 c).toRForget forgets) (V m)) :=
  Pipeline.RDat.θ_run_frame_track cfgs (0 : Fin 1) launch0 defs₀ Variants.none (fun c => (dats m 0 c).toRForget forgets) m ρ main
    (hbody := fun c => (obligation_forget m c).toRForget)
    (hshare := fun c => ((dats m 0 c).toRForget forgets).share_full fun _ => rfl)
    (howed := fun _ _ => rfl) (V := V m) (hmain := hmain m Variants.none) (hA := A_eq m)
    (hin := hin m) (hout := hout m)

/-- The frame: the program runs to the end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Eq.mp (congrFun (((dats m 0 c).toRForget forgets).ArrAt_in 0 rfl _) _) ((h c).1 0)).trans ((A_eq m c 0).trans (V_main_arg0 m c)),
     (Eq.mp (congrFun (((dats m 0 c).toRForget forgets).ArrAt_in 2 rfl _) _) ((h c).1 2)).trans ((A_eq m c 2).trans (V_main_arg1 m c)),
     (Eq.mp (congrFun (((dats m 0 c).toRForget forgets).ArrAt_in 1 rfl _) _) ((h c).1 1)).trans ((A_eq m c 1).trans (V_main_arg2 m c))⟩)
    (run_forget m ρ)

end Cert.Kernel.Point

end
-- ==== Proof.IdealBody.lean ====
/-
  The kernel body, run once on whole buffers.

  The body has one branch, on the grid coordinate: at the first point it multiplies the feature block by the weight
  block and stores the product in its scratch buffer; at every point it multiplies the staged rows of the propagation
  matrix by the scratch and stores the product in the result's staging buffer. Both stores cover their buffers, so
  each buffer afterwards holds exactly the stored product, and every load reads a buffer whole. The two statements
  below say this for any contents of the five buffers and any float instance: nothing here depends on what the numbers
  are, only on which buffer is read and which is written.
-/
import proofs.«178069_g30322469110220_cont_9to1_1671_10_alg».proof.Proof.Gen.KernelIdeal.Frame
import proofs.«178069_g30322469110220_cont_9to1_1671_10_alg».proof.Proof.Gen.KernelIdeal.Skeleton
import Idealize.ShloMosaic.Lib.Pipeline.Value
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's one branch condition, as printed: the grid coordinate compared with zero. -/
abbrev first (i : grid0.Coords) : Prop :=
  (Scalar.cmpi .ne (Scalar.extui (Scalar.cmpi .eq (BitVec.ofNat 32 (i 0).val) 0#32)) 0#32) = 1#1

/-- It holds at the first grid point and at no other. -/
theorem first_iff : ∀ t : Fin cfg0.N, first (grid0.coords t) ↔ t.val = 0 :=
  (by decide +kernel : ∀ t : Fin grid0.N, first (grid0.coords t) ↔ t.val = 0)

theorem zeros : (![0, 0] : Fin 2 → Nat) = fun _ => 0 := funext fun a => by fin_cases a <;> rfl

/-- A buffer stored whole reads back as what was stored, whatever it held. -/
theorem read_stored_whole {sg : RefSig} {κ : Kind} {sp : Space} {s : Shape} {e : EltTy} {Val : EltTy → Type} [∀ e, Nonempty (Val e)]
    (v : View sg κ sp s e) (f : v.ty.Contents Val) {off : Fin s.rank → Nat} (h : off = fun _ => 0)
    (inb : ∀ a, off a + s.size a ≤ s.size a) (w : s.Idx → Val e) :
    v.read Val (v.writes Val f [(⟨Rect.unit off s.size inb, w⟩ : View.Piece Val s e)]) = w := by
  rw [View.read_writes_eq_canon _ _ _ (fun y => ⟨_, List.mem_singleton_self _, View.mem_set_unit_zero h inb y⟩), View.canon_unit_zero h]

/-- The body at a point after the first, on whole buffers holding X0 (the feature block), X1 (the weight block),
    X2 (the propagation rows), anything (the result's buffer) and S (the scratch): it stores the product of the
    propagation rows with the scratch into the result's buffer and leaves everything else as it was. -/
theorem body_later (c : Dev nD) (E : Set ℕ) (i : grid0.Coords) (hc : ¬ first i)
    (a1 : Memref sig .tc .vmem S10000x128 .f32) (h1 : a1.IsWhole) (a2 : Memref sig .tc .vmem S128x128 .f32) (h2 : a2.IsWhole)
    (a3 : Memref sig .tc .vmem S600x10000 .f32) (h3 : a3.IsWhole) (a4 : Memref sig .tc .vmem S600x128 .f32) (h4 : a4.IsWhole)
    (a5 : Memref sig .tc .vmem S10000x128 .f32) (h5 : a5.IsWhole)
    (X0 : Vec F S10000x128 .f32) (X1 : Vec F S128x128 .f32) (X2 : Vec F S600x10000 .f32) (X3 : Vec F S600x128 .f32) (S : Vec F S10000x128 .f32)
    (K : PUnit → sProp 𝕄) :
    iprop((owns (c : Thread nD τ) a1 fullShare X0 ∗ owns (c : Thread nD τ) a2 fullShare X1 ∗ owns (c : Thread nD τ) a3 fullShare X2
            ∗ owns (c : Thread nD τ) a4 fullShare X3 ∗ owns (c : Thread nD τ) a5 fullShare S)
          ∗ (iprop(owns (c : Thread nD τ) a1 fullShare X0 ∗ owns (c : Thread nD τ) a2 fullShare X1 ∗ owns (c : Thread nD τ) a3 fullShare X2
            ∗ owns (c : Thread nD τ) a4 fullShare (k0_pay2 X2 S) ∗ owns (c : Thread nD τ) a5 fullShare S) -∗ K ⟨⟩))
      ⊢ wp frame (wpE (defs₀ (F := F)) Variants.none c none) E (cc0__gcn_kernel i a1 h1 a2 h2 a3 h3 a4 h4 a5 h5) K := by
  simp only [cc0__gcn_kernel_eq_skeleton]; unfold cc0__gcn_kernel_skel
  unfold owns
  iintro ⟨⟨⟨%f0, %hf0, H0⟩, ⟨%f1, %hf1, H1⟩, ⟨%f2, %hf2, H2⟩, ⟨%f3, %hf3, H3⟩, ⟨%f5, %hf5, H5⟩⟩, Hk⟩
  obtain rfl := h1.eq_unread hf0; obtain rfl := h2.eq_unread hf1; obtain rfl := h3.eq_unread hf2
  obtain rfl := h4.eq_unread hf3; obtain rfl := h5.eq_unread hf5
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    refine (read_stored_whole _ _ zeros _ _).trans ?_
    rw [View.readAt_eq_ld, View.readAt_eq_ld, hf2, hf5, View.ld_unit_zero zeros, View.ld_unit_zero zeros]
  · iexists _; isplitr; · ipureintro; exact hf5
    iexact H5

/-- The body at the first point, the scratch holding anything: it stores the product of the feature block with
    the weight block into the scratch, then the product of the propagation rows with that into the result's
    buffer. -/
theorem body_first (c : Dev nD) (E : Set ℕ) (i : grid0.Coords) (hc : first i)
    (a1 : Memref sig .tc .vmem S10000x128 .f32) (h1 : a1.IsWhole) (a2 : Memref sig .tc .vmem S128x128 .f32) (h2 : a2.IsWhole)
    (a3 : Memref sig .tc .vmem S600x10000 .f32) (h3 : a3.IsWhole) (a4 : Memref sig .tc .vmem S600x128 .f32) (h4 : a4.IsWhole)
    (a5 : Memref sig .tc .vmem S10000x128 .f32) (h5 : a5.IsWhole)
    (X0 : Vec F S10000x128 .f32) (X1 : Vec F S128x128 .f32) (X2 : Vec F S600x10000 .f32) (X3 : Vec F S600x128 .f32) (S : Vec F S10000x128 .f32)
    (K : PUnit → sProp 𝕄) :
    iprop((owns (c : Thread nD τ) a1 fullShare X0 ∗ owns (c : Thread nD τ) a2 fullShare X1 ∗ owns (c : Thread nD τ) a3 fullShare X2
            ∗ owns (c : Thread nD τ) a4 fullShare X3 ∗ owns (c : Thread nD τ) a5 fullShare S)
          ∗ (iprop(owns (c : Thread nD τ) a1 fullShare X0 ∗ owns (c : Thread nD τ) a2 fullShare X1 ∗ owns (c : Thread nD τ) a3 fullShare X2
            ∗ owns (c : Thread nD τ) a4 fullShare (k0_pay2 X2 (k0_pay1 X0 X1)) ∗ owns (c : Thread nD τ) a5 fullShare (k0_pay1 X0 X1)) -∗ K ⟨⟩))
      ⊢ wp frame (wpE (defs₀ (F := F)) Variants.none c none) E (cc0__gcn_kernel i a1 h1 a2 h2 a3 h3 a4 h4 a5 h5) K := by
  simp only [cc0__gcn_kernel_eq_skeleton]; unfold cc0__gcn_kernel_skel
  unfold owns
  iintro ⟨⟨⟨%f0, %hf0, H0⟩, ⟨%f1, %hf1, H1⟩, ⟨%f2, %hf2, H2⟩, ⟨%f3, %hf3, H3⟩, ⟨%f5, %hf5, H5⟩⟩, Hk⟩
  obtain rfl := h1.eq_unread hf0; obtain rfl := h2.eq_unread hf1; obtain rfl := h3.eq_unread hf2
  obtain rfl := h4.eq_unread hf3; obtain rfl := h5.eq_unread hf5
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    sl_unfold_words
    refine (read_stored_whole _ _ zeros _ _).trans ?_
    rw [View.readCov_unit_zero _ zeros, View.readAt_eq_ld, View.readAt_eq_ld, View.readAt_eq_ld, hf0, hf1, hf2,
      View.ld_unit_zero zeros, View.ld_unit_zero zeros, View.ld_unit_zero zeros]
  · iexists _; isplitr
    swap; · iexact H5
    ipureintro
    sl_unfold_words
    refine (read_stored_whole _ _ zeros _ _).trans ?_
    rw [View.readAt_eq_ld, View.readAt_eq_ld, hf0, hf1, View.ld_unit_zero zeros, View.ld_unit_zero zeros]

end Cert.KernelIdeal.Body

end
-- ==== Proof.IdealPoint.lean ====
/-
  The pipeline's proof data and the frame.

  The kernel runs over seventeen grid points. The feature matrix and the weight matrix are staged once and stay
  resident; at each point a block of six hundred rows of the propagation matrix is staged and the body writes the
  matching six hundred rows of the result, which are then written back. Ten thousand is not a multiple of six hundred:
  the last block overhangs the matrix by two hundred rows, its fetch fills only the four hundred rows inside, and
  only those rows of the result are written back. The scratch buffer is filled at the first point with the product of
  the features and the weights and is read, unchanged, at every later point; that is the one fact the invariant
  carries from point to point.

  This module states what each staging buffer holds after the body at each point, proves the body's obligation at a
  point from the two runs of the body, and concludes the frame: termination without fault, the argument arrays
  unchanged. For the frame the result window's contents are left unnamed, so the statement holds at any float
  instance.
-/
import proofs.«178069_g30322469110220_cont_9to1_1671_10_alg».proof.Proof.Gen.KernelIdeal.Frame
import proofs.«178069_g30322469110220_cont_9to1_1671_10_alg».proof.Proof.Gen.KernelIdeal.Skeleton
import proofs.«178069_g30322469110220_cont_9to1_1671_10_alg».proof.Proof.IdealBody
import Idealize.ShloMosaic.Lib.Pipeline.Value
set_option maxRecDepth 16384

noncomputable section

namespace Cert.KernelIdeal.Point

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- The scratch operand: a whole buffer of the kernel's own. -/
abbrev scM : Memref sig .tc .vmem S10000x128 .f32 := Memref.whole cc0_scratch0

/-- Each window's current staging buffer at point `t`, and that it is a whole buffer. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S600x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S600x128 .f32 := win0_3.stage (cfg0.slots t 3)
abbrev hs3 (t : Fin cfg0.N) : (ms3 t).IsWhole := hstage0_3 ((cfg0.slots t 3).cast nbuf0_3)

/-- The first grid point. -/
abbrev t0 : Fin cfg0.N := ⟨0, by decide⟩

/-- The feature matrix times the weight matrix, as the body computes it at the first point: what the scratch
    holds from then on. -/
def supp (c : Dev nD) : Vec F S10000x128 .f32 := k0_pay1 (iblk m c 0 t0) (iblk m c 1 t0)

/-- The rows of the propagation matrix staged at point `t`: the block's rows that lie inside the matrix, and `d` on
    the rows past its end (the last block overhangs the matrix; no other does). -/
def prows (c : Dev nD) (t : Fin cfg0.N) (d : S600x10000.Idx → Elt F .f32) : Vec F S600x10000 .f32 :=
  win0_2.fill (grid0.coords t) d (iblk m c 2 t)

/-- The result rows the body computes at point `t` from those: their product with the scratch. -/
def orows (c : Dev nD) (t : Fin cfg0.N) (d : S600x10000.Idx → Elt F .f32) : Vec F S600x128 .f32 :=
  k0_pay2 (prows m c t d) (supp m c)

/-- A filler for the rows nothing names: the zero word. -/
def zfill : S600x10000.Idx → Elt F .f32 := fun _ => Scalar.ofBits .f32 0#32

/-- The launch's invariant with the scratch spelt as a buffer owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The invariant before position `n`: before the first point the scratch holds anything; afterwards it holds the
    product of the features with the weights. -/
def PhiS (c : Dev nD) : ℕ → sProp 𝕄
  | 0 => Pipeline.ΦA spec0 c
  | _ + 1 => iprop(iprop(owns (c : Thread nD τ) scM fullShare (supp m c)) ∗ (∃ r, prngReg c r))

/-- The proof data of the pipeline on core `c`: the arrays as the region finds them; after the body at point `t` the
    two resident inputs' buffers at their blocks, the propagation rows' buffer at the staged rows and the result's
    at their product with the scratch (both filled out with zeros past the matrix's end: those rows are never
    written back); the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => prows m c t zfill
    | ⟨3, _⟩ => orows m c t zfill
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = prows m c t zfill := by dsimp only [dats]
theorem after3 (c : Dev nD) (t : Fin cfg0.N) : (dats m 0 c).after 3 t = orows m c t zfill := by dsimp only [dats]

/-- The two resident inputs are found at their blocks at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
/-- The propagation rows are fetched at every point: the buffer holds the staged rows over whatever it held. -/
theorem before2 (c : Dev nD) (t : Fin cfg0.N) (d) : (dats m 0 c).before 2 t d = prows m c t d := by
  rw [(dats m 0 c).before_fetched 2 t (fetch0_2 t)]
  unfold Dat.fetched Dat.blockOf prows iblk; rw [A_eq]
/-- The result's buffer was written back at the point before (or this is the first point): it holds anything. -/
theorem before3 (c : Dev nD) (t : Fin cfg0.N) (d) : (dats m 0 c).before 3 t d = d :=
  (dats m 0 c).before_out_reset 3 rfl t
    (by by_cases h : t.val = 0
        · exact .inl h
        · exact .inr ⟨h, flush0_3 _⟩) d

theorem PhiS_succ (c : Dev nD) (n : ℕ) :
    PhiS m c (n + 1) = iprop(iprop(owns (c : Thread nD τ) scM fullShare (supp m c)) ∗ (∃ r, prngReg c r)) := rfl

/-! ## The body at a point -/

/-- The body at point `t`, the two resident inputs' buffers at their blocks, the propagation rows' buffer at the
    staged rows over `d2`, the result's buffer at anything: the buffers are handed back with the result's at the
    product of those staged rows with the scratch, and the invariant moves on one position. At the first point the
    scratch is filled; at a later one it is read as the point before left it. -/
theorem sound_point (c : Dev nD) (t : Fin cfg0.N) (d2 : S600x10000.Idx → Elt F .f32) (X3 : S600x128.Idx → Elt F .f32)
    (K : PUnit → sProp 𝕄) :
    iprop((PhiS m c t.val ∗ owns (c : Thread nD τ) (ms0 t) fullShare (iblk m c 0 t) ∗ owns (c : Thread nD τ) (ms1 t) fullShare (iblk m c 1 t)
            ∗ owns (c : Thread nD τ) (ms2 t) fullShare (prows m c t d2) ∗ owns (c : Thread nD τ) (ms3 t) fullShare X3)
          ∗ (iprop(PhiS m c (t.val + 1) ∗ owns (c : Thread nD τ) (ms0 t) fullShare (iblk m c 0 t) ∗ owns (c : Thread nD τ) (ms1 t) fullShare (iblk m c 1 t)
            ∗ owns (c : Thread nD τ) (ms2 t) fullShare (prows m c t d2) ∗ owns (c : Thread nD τ) (ms3 t) fullShare (orows m c t d2)) -∗ K ⟨⟩))
      ⊢ wp frame (wpE (defs₀ (F := F)) Variants.none c none) Set.univ (bodyAt0 t) K := by
  rw [PhiS_succ]
  by_cases hz : t.val = 0
  · obtain rfl : t = t0 := Fin.ext hz
    rw [show PhiS m c t0.val = Pipeline.ΦA spec0 c from rfl, PhiA_eq]
    iintro ⟨⟨⟨⟨%dS, HS⟩, Hg⟩, H0, H1, H2, H3⟩, Hk⟩
    iapply (body_first c Set.univ (grid0.coords t0) ((first_iff t0).mpr rfl) (ms0 t0) (hs0 t0) (ms1 t0) (hs1 t0)
      (ms2 t0) (hs2 t0) (ms3 t0) (hs3 t0) scM (Memref.isWhole_whole _)
      (iblk m c 0 t0) (iblk m c 1 t0) (prows m c t0 d2) X3 dS K)
    isplitl [H0 H1 H2 H3 HS]
    · isplitl [H0]; · iexact H0
      isplitl [H1]; · iexact H1
      isplitl [H2]; · iexact H2
      isplitl [H3]; · iexact H3
      iexact HS
    iintro ⟨H0, H1, H2, H3, HS⟩
    iapply Hk
    isplitl [HS Hg]
    · isplitl [HS]; · iexact HS
      iexact Hg
    isplitl [H0]; · iexact H0
    isplitl [H1]; · iexact H1
    isplitl [H2]; · iexact H2
    iexact H3
  · obtain ⟨k, hk⟩ : ∃ k, t.val = k + 1 := Nat.exists_eq_succ_of_ne_zero hz
    rw [show PhiS m c t.val = iprop(iprop(owns (c : Thread nD τ) scM fullShare (supp m c)) ∗ (∃ r, prngReg c r)) from by rw [hk]; rfl]
    iintro ⟨⟨⟨HS, Hg⟩, H0, H1, H2, H3⟩, Hk⟩
    iapply (body_later c Set.univ (grid0.coords t) (fun h => hz ((first_iff t).mp h)) (ms0 t) (hs0 t) (ms1 t) (hs1 t)
      (ms2 t) (hs2 t) (ms3 t) (hs3 t) scM (Memref.isWhole_whole _)
      (iblk m c 0 t) (iblk m c 1 t) (prows m c t d2) X3 (supp m c) K)
    isplitl [H0 H1 H2 H3 HS]
    · isplitl [H0]; · iexact H0
      isplitl [H1]; · iexact H1
      isplitl [H2]; · iexact H2
      isplitl [H3]; · iexact H3
      iexact HS
    iintro ⟨H0, H1, H2, H3, HS⟩
    iapply Hk
    isplitl [HS Hg]
    · isplitl [HS]; · iexact HS
      iexact Hg
    isplitl [H0]; · iexact H0
    isplitl [H1]; · iexact H1
    isplitl [H2]; · iexact H2
    iexact H3

/-- Handing the propagation rows' buffer back: whatever filled it out past the matrix's end, on the rows inside the
    matrix it holds the staged rows. -/
theorem prows_refill (c : Dev nD) (t : Fin cfg0.N) (d : S600x10000.Idx → Elt F .f32) :
    win0_2.fill (grid0.coords t) d (win0_2.cut (grid0.coords t) (prows m c t zfill)) = prows m c t d := by
  unfold prows; rw [Window.cut_fill]

/-! ## The frame: the result window's contents left unnamed -/

/-- For the frame nothing of what the body leaves in the result's buffer is needed: the window is forgotten. -/
def forgets : Fin 4 → Bool := fun | 0 => false | 1 => false | 2 => false | 3 => true | ⟨_ + 4, h⟩ => absurd h (Nat.not_lt.2 (Nat.le_add_left _ _))

/-- What the body is called with at point `t`, the windows one by one, -/
def preF (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ X, owns (c : Thread nD τ) (ms3 t) fullShare X))

/-- and what it returns. -/
def postF (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ (∃ d, owns (c : Thread nD τ) (ms2 t) fullShare (win0_2.fill (grid0.coords t) d (win0_2.cut (grid0.coords t) ((dats m 0 c).after 2 t))))
    ∗ (∃ X, owns (c : Thread nD τ) (ms3 t) fullShare X))

theorem sound_forget (c : Dev nD) (t : Fin cfg0.N) :
    preF m c t ⊢ wp frame (wpE (defs₀ (F := F)) Variants.none c none) Set.univ (bodyAt0 t) (fun _ => postF m c t) := by
  unfold preF postF
  simp only [before0, before1, before2, after0, after1, after2]
  rw [show (dats m 0 c).owesAt () t.succ = (dats m 0 c).owesAt () t.castSucc from rfl,
    show (dats m 0 c).Φ t.succ = PhiS m c (t.val + 1) from rfl, show (dats m 0 c).Φ t.castSucc = PhiS m c t.val from rfl]
  iintro ⟨HΦ, Ho, ⟨%d0, H0⟩, ⟨%d1, H1⟩, ⟨%d2, H2⟩, ⟨%X3, H3⟩⟩
  iapply (sound_point m c t d2 X3 _)
  isplitl [HΦ H0 H1 H2 H3]
  · isplitl [HΦ]; · iexact HΦ
    isplitl [H0]; · iexact H0
    isplitl [H1]; · iexact H1
    isplitl [H2]; · iexact H2
    iexact H3
  iintro ⟨HΦ, H0, H1, H2, H3⟩
  isplitl [HΦ]; · iexact HΦ
  isplitl [Ho]; · iexact Ho
  isplitl [H0]; · iexact H0
  isplitl [H1]; · iexact H1
  isplitl [H2]
  · iexists d2; rw [prows_refill]; iexact H2
  iexists _; iexact H3

/-- The library's body obligation with the result window forgotten, at every point. -/
theorem obligation_forget (c : Dev nD) :
    BodyObligationLoose (dats (F := F) m 0 c) (defs₀ (F := F)) Variants.none () Set.univ forgets := fun t => by
  rw [bigSep_W0, bigSep_W0]
  exact sound_forget m c t

/-- What the launch hands the region is the invariant before the first point. -/
theorem hin (c : Dev nD) : Pipeline.ΦA spec0 c ⊢ (dats m 0 c).Φ 0 := Idealize.SL.BI.Entails.refl _

/-- After the last point the invariant gives the launch's back: what the scratch holds is forgotten. -/
theorem hout (c : Dev nD) : (dats m 0 c).Φ (Fin.last cfg0.N) ⊢ Pipeline.ΦA spec0 c := by
  rw [show (dats m 0 c).Φ (Fin.last cfg0.N) = iprop(iprop(owns (c : Thread nD τ) scM fullShare (supp m c)) ∗ (∃ r, prngReg c r)) from rfl, PhiA_eq]
  iintro ⟨HS, Hg⟩
  isplitl [HS]
  · iexists _; iexact HS
  iexact Hg

set_option backward.isDefEq.respectTransparency.types false in
/-- From any memory with zero counters every weakly fair execution of the program terminates, faulting nowhere, with
    every input array as it was (nothing is stated of the result array here). -/
theorem run_forget : θ_run defs (onTc (τ := τ) (main (F := F))) (s₀ m ρ)
    (Pipeline.RDat.FramePost (cfgs 0) (fun c => (dats m 0 c).toRForget forgets) (V m)) :=
  Pipeline.RDat.θ_run_frame_track cfgs (0 : Fin 1) launch0 defs₀ Variants.none (fun c => (dats m 0 c).toRForget forgets) m ρ main
    (hbody := fun c => (obligation_forget m c).toRForget)
    (hshare := fun c => ((dats m 0 c).toRForget forgets).share_full fun _ => rfl)
    (howed := fun _ _ => rfl) (V := V m) (hmain := hmain m Variants.none) (hA := A_eq m)
    (hin := hin m) (hout := hout m)

/-- The frame: the program runs to the end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Eq.mp (congrFun (((dats m 0 c).toRForget forgets).ArrAt_in 0 rfl _) _) ((h c).1 0)).trans ((A_eq m c 0).trans (V_main_arg0 m c)),
     (Eq.mp (congrFun (((dats m 0 c).toRForget forgets).ArrAt_in 2 rfl _) _) ((h c).1 2)).trans ((A_eq m c 2).trans (V_main_arg1 m c)),
     (Eq.mp (congrFun (((dats m 0 c).toRForget forgets).ArrAt_in 1 rfl _) _) ((h c).1 1)).trans ((A_eq m c 1).trans (V_main_arg2 m c))⟩)
    (run_forget m ρ)

end Cert.KernelIdeal.Point

end
-- ==== Proof.LibPlainMatmul.lean ====
/-
  A plain matrix product into a zero accumulator, read at an entry.

  For a dot whose dimension numbers contract the left operand's columns against the right operand's rows, with no batch
  axis — `[M, K] × [K, N] → [M, N]` — the product accumulated into the zero splat is, at the extended reals, the
  textbook sum: entry `(p, c)` is the sum over `k` of `lhs (p, k) · rhs (k, c)`. The dimension numbers enter only
  through four coordinate facts about the dot's operand indices (which a literal record proves by evaluating its
  membership tests) and the fact that exactly one axis, of extent `K`, is contracted; the lemma is general in the
  extents, the element types and the contraction precision, so it serves every such product of a kernel body.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

/-- Entry `(p, c)` of `lhs · rhs` accumulated into zero is `Σ k, lhs (p, k) · rhs (k, c)`: the dot's sum over its
    one-axis contraction index, re-indexed along the bijection of that index with `Fin K`, each operand index then
    identified by its two coordinates. -/
theorem matmul_zero_ix2 {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (c : Fin N) :
    matmul D prec lhs rhs (constant ⟨2, ![M, N]⟩ .f32 0x00000000#32) (ix2 p c)
      = ∑ k : Fin K, lhs (ix2 p k) * rhs (ix2 k c) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainMatmul

end
-- ==== Proof.IdealEntries.lean ====
/-
  The body's two products, entry by entry.

  At the extended reals a matrix product accumulated into zero is the textbook sum. The scratch's payload is the
  feature block times the weight block (a shape cast of a shape to itself changes nothing): entry (p, c) is the sum
  over j of x(p, j) · w(j, c). The result's payload is the staged propagation rows times the scratch: entry (r, c) is
  the sum over k of P(r, k) · S(k, c). In particular row r of the second product reads row r of the rows and nothing
  else of them — which is why rows staged past the matrix's end never reach a row that is written back.
-/
import proofs.«178069_g30322469110220_cont_9to1_1671_10_alg».proof.Proof.Gen.KernelIdeal.Skeleton
import proofs.«178069_g30322469110220_cont_9to1_1671_10_alg».proof.Proof.LibPlainMatmul
import Idealize.ShloMosaic.Lib.Pipeline.Value
import Idealize.ShloMosaic.Lib.ValueIdx
import Idealize.ShloMosaic.PureOps.Ideal.Laws

noncomputable section

namespace Cert.KernelIdeal.Entries

open Cert.KernelIdeal Cert.KernelIdeal.Gen Idealize.ShloMosaic Idealize.ShloMosaic.ValueIdx
open scoped BigOperators

/-- Entry (p, c) of the scratch's payload: the sum over the 128 feature columns. -/
theorem scratch_entry (x : Vec Ideal S10000x128 .f32) (w : Vec Ideal S128x128 .f32) (p : Fin 10000) (c : Fin 128) :
    k0_pay1 (F := Ideal) x w (ix2 p c) = ∑ j : Fin 128, x (ix2 p j) * w (ix2 j c) := by
  unfold k0_pay1
  rw [shapeCast_self]
  exact Cert.LibPlainMatmul.matmul_zero_ix2 dot_S10000x128_S128x128_S10000x128_1_0_0_1_n_n none rfl rfl
    (fun i q => by
      unfold DotDims.lhsIdx
      rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
      rfl)
    (fun i q => dot_S10000x128_S128x128_S10000x128_1_0_0_1_n_n.lhsIdx_val_of_single rfl i q)
    (fun i q => dot_S10000x128_S128x128_S10000x128_1_0_0_1_n_n.rhsIdx_val_of_single rfl i q)
    (fun i q => by
      unfold DotDims.rhsIdx
      rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
      rfl)
    x w p c

/-- Entry (r, c) of the result's payload: the sum over the 10000 nodes. -/
theorem result_entry (P : Vec Ideal S600x10000 .f32) (S : Vec Ideal S10000x128 .f32) (r : Fin 600) (c : Fin 128) :
    k0_pay2 (F := Ideal) P S (ix2 r c) = ∑ k : Fin 10000, P (ix2 r k) * S (ix2 k c) := by
  unfold k0_pay2
  exact Cert.LibPlainMatmul.matmul_zero_ix2 dot_S600x10000_S10000x128_S600x128_1_0_0_1_n_n none rfl rfl
    (fun i q => by
      unfold DotDims.lhsIdx
      rw [dif_neg (show ¬(0 : Fin S600x10000.rank) ∈ dot_S600x10000_S10000x128_S600x128_1_0_0_1_n_n.lhsBatch by decide), dif_pos (show (0 : Fin S600x10000.rank) ∈ dot_S600x10000_S10000x128_S600x128_1_0_0_1_n_n.lhsNonContracting by decide)]
      rfl)
    (fun i q => dot_S600x10000_S10000x128_S600x128_1_0_0_1_n_n.lhsIdx_val_of_single rfl i q)
    (fun i q => dot_S600x10000_S10000x128_S600x128_1_0_0_1_n_n.rhsIdx_val_of_single rfl i q)
    (fun i q => by
      unfold DotDims.rhsIdx
      rw [dif_neg (show ¬(1 : Fin S10000x128.rank) ∈ dot_S600x10000_S10000x128_S600x128_1_0_0_1_n_n.rhsBatch by decide), dif_pos (show (1 : Fin S10000x128.rank) ∈ dot_S600x10000_S10000x128_S600x128_1_0_0_1_n_n.rhsNonContracting by decide)]
      rfl)
    P S r c

end Cert.KernelIdeal.Entries

end
-- ==== Proof.IdealExact.lean ====
/-
  The pipeline's run with the result window named, at the extended reals.

  To say what the result array holds, the result's staging buffer must be named after each point: the product of the
  staged propagation rows with the scratch. At the last point the staged block overhangs the matrix and its last two
  hundred rows hold whatever the buffer held; the product's last two hundred rows depend on them, but its first four
  hundred — the ones written back — do not, because row r of a product reads only row r of its left factor. So on the
  rows that are written back the body leaves the same values whatever filled the buffer, which is all the pipeline's
  obligation for a clipped window asks.
-/
import proofs.«178069_g30322469110220_cont_9to1_1671_10_alg».proof.Proof.IdealPoint
import proofs.«178069_g30322469110220_cont_9to1_1671_10_alg».proof.Proof.IdealEntries

set_option maxRecDepth 16384

noncomputable section

namespace Cert.KernelIdeal.Exact

open Cert.KernelIdeal Cert.KernelIdeal.Gen Cert.KernelIdeal.Body Cert.KernelIdeal.Point Cert.KernelIdeal.Entries
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx
open scoped BigOperators

local notation "𝕄" => MT nD τ sig Unit (Elt Ideal) ℕ (UR sig nD τ) ℕ

variable (m : (ℓ : Loc nD τ sig) → Buf (Elt Ideal) ℓ) (ρ : Dev nD → PrngReg)

/-- Over the grid: the propagation rows' window and the result's are cut alike on the row axis, and the rows'
    window is never cut on the column axis. -/
theorem cuts : ∀ t : Fin cfg0.N, win0_2.xsize (grid0.coords t) 0 = win0_3.xsize (grid0.coords t) 0
    ∧ win0_2.xsize (grid0.coords t) 1 = 10000 :=
  (by decide +kernel : ∀ t : Fin grid0.N, win0_2.xsize (grid0.coords t) 0 = win0_3.xsize (grid0.coords t) 0
    ∧ win0_2.xsize (grid0.coords t) 1 = 10000)

/-- A staged row that lies inside the matrix does not depend on what fills the buffer past the matrix's end. -/
theorem prows_inside (c : Dev nD) (t : Fin cfg0.N) (d : S600x10000.Idx → Elt Ideal .f32) (r : Fin 600) (k : Fin 10000)
    (hr : r.val < win0_3.xsize (grid0.coords t) 0) : prows m c t d (ix2 r k) = prows m c t zfill (ix2 r k) := by
  have hm : win0_2.moved (grid0.coords t) (ix2 r k) = true := (win0_2.moved_iff _ _).mpr fun a => by
    match a with
    | ⟨0, _⟩ => show r.val < win0_2.xsize (grid0.coords t) 0; rw [(cuts t).1]; exact hr
    | ⟨1, _⟩ => show k.val < win0_2.xsize (grid0.coords t) 1; rw [(cuts t).2]; exact k.isLt
  unfold prows Window.fill
  rw [dif_pos hm, dif_pos hm]

/-- On the rows that are written back, the result rows do not depend on it either: row r of the product reads row r
    of the staged rows only. -/
theorem orows_cut (c : Dev nD) (t : Fin cfg0.N) (d : S600x10000.Idx → Elt Ideal .f32) :
    win0_3.cut (grid0.coords t) (orows m c t d) = win0_3.cut (grid0.coords t) (orows m c t zfill) := by
  funext y
  show orows m c t d (win0_3.xinj (grid0.coords t) y) = orows m c t zfill (win0_3.xinj (grid0.coords t) y)
  obtain ⟨r, q, hr, e⟩ : ∃ (r : Fin 600) (q : Fin 128), r.val < win0_3.xsize (grid0.coords t) 0
      ∧ win0_3.xinj (grid0.coords t) y = ix2 r q :=
    ⟨win0_3.xinj (grid0.coords t) y 0, win0_3.xinj (grid0.coords t) y 1, (y 0).isLt, eq_ix2 (n0 := 600) (n1 := 128) _⟩
  rw [e]
  unfold orows
  rw [result_entry, result_entry]
  refine Finset.sum_congr rfl fun k _ => ?_
  rw [prows_inside m c t d r k hr]

/-! ## The body obligation, every window named -/

def preE (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def postE (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ (∃ d, owns (c : Thread nD τ) (ms2 t) fullShare (win0_2.fill (grid0.coords t) d (win0_2.cut (grid0.coords t) ((dats m 0 c).after 2 t))))
    ∗ (∃ d, owns (c : Thread nD τ) (ms3 t) fullShare (win0_3.fill (grid0.coords t) d (win0_3.cut (grid0.coords t) ((dats m 0 c).after 3 t)))))

theorem sound_exact (c : Dev nD) (t : Fin cfg0.N) :
    preE m c t ⊢ wp frame (wpE (defs₀ (F := Ideal)) Variants.none c none) Set.univ (bodyAt0 t) (fun _ => postE m c t) := by
  unfold preE postE
  simp only [before0, before1, before2, before3, after0, after1, after2, after3]
  rw [show (dats m 0 c).owesAt () t.succ = (dats m 0 c).owesAt () t.castSucc from rfl,
    show (dats m 0 c).Φ t.succ = PhiS m c (t.val + 1) from rfl, show (dats m 0 c).Φ t.castSucc = PhiS m c t.val from rfl]
  iintro ⟨HΦ, Ho, ⟨%d0, H0⟩, ⟨%d1, H1⟩, ⟨%d2, H2⟩, ⟨%d3, H3⟩⟩
  iapply (sound_point m c t d2 d3 _)
  isplitl [HΦ H0 H1 H2 H3]
  · isplitl [HΦ]; · iexact HΦ
    isplitl [H0]; · iexact H0
    isplitl [H1]; · iexact H1
    isplitl [H2]; · iexact H2
    iexact H3
  iintro ⟨HΦ, H0, H1, H2, H3⟩
  isplitl [HΦ]; · iexact HΦ
  isplitl [Ho]; · iexact Ho
  isplitl [H0]; · iexact H0
  isplitl [H1]; · iexact H1
  isplitl [H2]
  · iexists d2; rw [prows_refill]; iexact H2
  iexists (orows m c t d2)
  rw [← orows_cut m c t d2, Window.fill_cut]; iexact H3

/-- The library's body obligation in the form it takes for clipped windows, at every point. -/
theorem obligation_exact (c : Dev nD) :
    BodyObligationLoose (dats (F := Ideal) m 0 c) (defs₀ (F := Ideal)) Variants.none () Set.univ := fun t => by
  rw [bigSep_W0, bigSep_W0]
  exact sound_exact m c t

set_option backward.isDefEq.respectTransparency.types false in
/-- The run: every weakly fair execution terminates, faulting nowhere, with every array of the pipeline at what the
    write-backs of the named blocks leave. -/
theorem run_exact : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => obligation_exact m c) (hshare := fun c => (dats m 0 c).share_full fun _ => rfl)
    (howed := fun _ _ => rfl) (V := V m) (hmain := hmain m Variants.none) (hA := A_eq m)
    (hin := hin m) (hout := hout m)

end Cert.KernelIdeal.Exact

end
-- ==== Proof.Spec.lean ====
/-
  The graph-convolution layer as one function of its three inputs.

  With x the node features (10000 × 128), W the weights (128 × 128) and P the propagation matrix (10000 × 10000),
  the layer's output is P · (x · W): entry (r, c) is the sum over the nodes k of P(r, k) times the support of node
  k in channel c, the support being the sum over j of x(k, j) · W(j, c). Both programs group the two products this
  way, so no law of the extended reals beyond reading a sum is needed to compare them.
-/
import Idealize.ShloMosaic.PureOps.Ideal
import Idealize.ShloMosaic.Lib.ValueIdx

noncomputable section

namespace Cert.Spec

open Idealize.ShloMosaic Idealize.ShloMosaic.ValueIdx
open scoped BigOperators

/-- The support: features times weights. -/
def support (x : Vec Ideal ⟨2, ![10000, 128]⟩ .f32) (w : Vec Ideal ⟨2, ![128, 128]⟩ .f32) : Vec Ideal ⟨2, ![10000, 128]⟩ .f32 :=
  fun i => ∑ j : Fin 128, x (ix2 (i 0) j) * w (ix2 j (i 1))

/-- The layer: the propagation matrix times the support. -/
def gcn (x : Vec Ideal ⟨2, ![10000, 128]⟩ .f32) (p : Vec Ideal ⟨2, ![10000, 10000]⟩ .f32) (w : Vec Ideal ⟨2, ![128, 128]⟩ .f32) :
    Vec Ideal ⟨2, ![10000, 128]⟩ .f32 :=
  fun i => ∑ k : Fin 10000, p (ix2 (i 0) k) * support x w (ix2 k (i 1))

end Cert.Spec

end
-- ==== Proof.IdealLayer.lean ====
/-
  From the blocks to the result array.

  At point t the body leaves in the result's staging buffer the product of the staged propagation rows with the
  scratch, and the pipeline writes the buffer's rows that lie inside the array onto rows 600·t onwards: six hundred
  rows at each of the first sixteen points, four hundred at the last. Row r of that product is the sum over the nodes
  k of the matrix entry (600·t + r, k) — the staged rows are the matrix's own rows, block by block — times the
  scratch's entry (k, c), and the scratch is the support. So what point t writes back is block t of the layer's
  output, and the seventeen blocks' rows — 0 to 9599 in steps of 600, then 9600 to 9999 — are all the rows there are.
-/
import proofs.«178069_g30322469110220_cont_9to1_1671_10_alg».proof.Proof.IdealExact
import proofs.«178069_g30322469110220_cont_9to1_1671_10_alg».proof.Proof.Spec

set_option maxRecDepth 16384

noncomputable section

namespace Cert.KernelIdeal.Layer

open Cert.KernelIdeal Cert.KernelIdeal.Gen Cert.KernelIdeal.Body Cert.KernelIdeal.Point Cert.KernelIdeal.Entries
open Cert.KernelIdeal.Exact Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx
open scoped BigOperators

variable (m : (ℓ : Loc nD τ sig) → Buf (Elt Ideal) ℓ) (ρ : Dev nD → PrngReg)

/-- The printed index maps and cuts, decided over the grid: the rows' window and the result's both sit at block row
    `t`, block column 0; the result's window is never cut on the column axis, and on the row axis it keeps six hundred
    rows but for the last point, which keeps four hundred. -/
theorem grid_facts : ∀ t : Fin cfg0.N, win0_3.index t (0 : Fin 2) = t.val ∧ win0_3.index t (1 : Fin 2) = 0
    ∧ win0_2.index t (0 : Fin 2) = t.val ∧ win0_2.index t (1 : Fin 2) = 0
    ∧ win0_3.xsize (grid0.coords t) (1 : Fin 2) = 128
    ∧ (t.val < 16 → win0_3.xsize (grid0.coords t) (0 : Fin 2) = 600)
    ∧ (t.val = 16 → win0_3.xsize (grid0.coords t) (0 : Fin 2) = 400) :=
  (by decide +kernel : ∀ t : Fin grid0.N, win0_3.index t (0 : Fin 2) = t.val ∧ win0_3.index t (1 : Fin 2) = 0
    ∧ win0_2.index t (0 : Fin 2) = t.val ∧ win0_2.index t (1 : Fin 2) = 0
    ∧ win0_3.xsize (grid0.coords t) (1 : Fin 2) = 128
    ∧ (t.val < 16 → win0_3.xsize (grid0.coords t) (0 : Fin 2) = 600)
    ∧ (t.val = 16 → win0_3.xsize (grid0.coords t) (0 : Fin 2) = 400))

/-- The two resident windows sit at block (0, 0). -/
theorem resident_facts : win0_0.index t0 (0 : Fin 2) = 0 ∧ win0_0.index t0 (1 : Fin 2) = 0
    ∧ win0_1.index t0 (0 : Fin 2) = 0 ∧ win0_1.index t0 (1 : Fin 2) = 0 := by decide +kernel

/-- A staged row inside the matrix is the matrix's own row 600·t + r. -/
theorem staged_row (c : Dev nD) (t : Fin cfg0.N) (r : Fin 600) (k : Fin 10000) (hr : r.val < win0_3.xsize (grid0.coords t) 0)
    (i : S10000x10000.Idx) (h0 : (i 0).val = t.val * 600 + r.val) (h1 : (i 1).val = k.val) :
    prows m c t zfill (ix2 r k) = V m c main_arg1 i := by
  have hm : win0_2.moved (grid0.coords t) (ix2 r k) = true := (win0_2.moved_iff _ _).mpr fun a => by
    match a with
    | ⟨0, _⟩ => show r.val < win0_2.xsize (grid0.coords t) 0; rw [(cuts t).1]; exact hr
    | ⟨1, _⟩ => show k.val < win0_2.xsize (grid0.coords t) 1; rw [(cuts t).2]; exact k.isLt
  obtain ⟨-, -, e2, e3, -, -, -⟩ := grid_facts t
  unfold prows Window.fill
  rw [dif_pos hm]
  unfold iblk
  show V m c main_arg1 (((cfg0.win 2).blk t).view.emb _) = V m c main_arg1 i
  congr 1
  funext a; apply Fin.ext
  match a with
  | ⟨0, _⟩ => show win0_2.index t (0 : Fin 2) * 600 + 1 * r.val = (i 0).val; rw [e2, h0]; omega
  | ⟨1, _⟩ => show win0_2.index t (1 : Fin 2) * 10000 + 1 * k.val = (i 1).val; rw [e3, h1]; omega

/-- The scratch is the support of the argument arrays. -/
theorem scratch_is_support (c : Dev nD) (k : Fin 10000) (q : Fin 128) :
    supp m c (ix2 k q) = support (V m c main_arg0) (V m c main_arg2) (ix2 k q) := by
  obtain ⟨a0, a1, b0, b1⟩ := resident_facts
  unfold supp
  rw [scratch_entry]
  unfold support
  refine Finset.sum_congr rfl fun j _ => ?_
  congr 1
  · unfold iblk
    show V m c main_arg0 (((cfg0.win 0).blk t0).view.emb (ix2 k j)) = V m c main_arg0 (ix2 k j)
    congr 1
    funext a; apply Fin.ext
    match a with
    | ⟨0, _⟩ => show win0_0.index t0 (0 : Fin 2) * 10000 + 1 * k.val = k.val; rw [a0]; omega
    | ⟨1, _⟩ => show win0_0.index t0 (1 : Fin 2) * 128 + 1 * j.val = j.val; rw [a1]; omega
  · unfold iblk
    show V m c main_arg2 (((cfg0.win 1).blk t0).view.emb (ix2 j q)) = V m c main_arg2 (ix2 j q)
    congr 1
    funext a; apply Fin.ext
    match a with
    | ⟨0, _⟩ => show win0_1.index t0 (0 : Fin 2) * 128 + 1 * j.val = j.val; rw [b0]; omega
    | ⟨1, _⟩ => show win0_1.index t0 (1 : Fin 2) * 128 + 1 * q.val = q.val; rw [b1]; omega

/-- What point `t` writes back is block `t` of the layer's output. -/
theorem written_back (c : Dev nD) (t : Fin cfg0.N) :
    (dats m 0 c).flushed 3 t
      = ((cfg0.win 3).blk t).view.read (Elt Ideal) (gcn (V m c main_arg0) (V m c main_arg1) (V m c main_arg2)) := by
  show (cfg0.win 3).cut (grid0.coords t) ((dats m 0 c).after 3 t) = _
  rw [after3]
  funext y
  show orows m c t zfill (win0_3.xinj (grid0.coords t) y) = gcn _ _ _ (((cfg0.win 3).blk t).view.emb y)
  obtain ⟨e30, e31, -, -, -, -, -⟩ := grid_facts t
  obtain ⟨r, q, hr, hr', hq', e⟩ : ∃ (r : Fin 600) (q : Fin 128), r.val < win0_3.xsize (grid0.coords t) 0
      ∧ r.val = (y 0).val ∧ q.val = (y 1).val ∧ win0_3.xinj (grid0.coords t) y = ix2 r q :=
    ⟨win0_3.xinj (grid0.coords t) y 0, win0_3.xinj (grid0.coords t) y 1, (y 0).isLt, rfl, rfl, eq_ix2 (n0 := 600) (n1 := 128) _⟩
  rw [e]
  unfold orows
  rw [result_entry]
  unfold gcn
  refine Finset.sum_congr rfl fun k _ => ?_
  have hrow : ((((cfg0.win 3).blk t).view.emb y) 0).val = t.val * 600 + r.val := by
    show win0_3.index t (0 : Fin 2) * 600 + 1 * (y 0).val = _; rw [e30, hr']; omega
  have hcol : (((cfg0.win 3).blk t).view.emb y) 1 = q := Fin.ext (by
    show win0_3.index t (1 : Fin 2) * 128 + 1 * (y 1).val = _; rw [e31, hq']; omega)
  rw [staged_row m c t r k hr (ix2 ((((cfg0.win 3).blk t).view.emb y) 0) k) hrow rfl, scratch_is_support m c k q, hcol]

/-- An index of the result array is in point `t`'s block iff each coordinate is in the block's kept range. -/
theorem mem_block (t : Fin cfg0.N) (i : S10000x128.Idx) :
    i ∈ ((cfg0.win 3).blk t).view.set ↔ ∀ a : Fin 2, win0_3.index t a * S600x128.size a ≤ (i a).val
      ∧ (i a).val < win0_3.index t a * S600x128.size a + win0_3.xsize (grid0.coords t) a := by
  show i ∈ ((View.whole main_v0).slice (win0_3.rect t)).set ↔ _
  rw [View.set_slice_whole, Rect.mem_set_unit]
  exact Iff.rfl

/-- Every row is in the block of the point `row / 600`. -/
theorem rows_covered (i : S10000x128.Idx) :
    ∃ t : Fin cfg0.N, (cfg0.win 3).flush t = true ∧ i ∈ ((cfg0.win 3).blk t).view.set := by
  have h0 : (i 0).val < 10000 := (i 0).isLt
  have h1 : (i 1).val < 128 := (i 1).isLt
  have hlt : (i 0).val / 600 < 17 := by omega
  obtain ⟨t, tv⟩ : ∃ t : Fin cfg0.N, t.val = (i 0).val / 600 := ⟨⟨(i 0).val / 600, hlt⟩, rfl⟩
  obtain ⟨e30, e31, -, -, x1, xa, xb⟩ := grid_facts t
  refine ⟨t, flush0_3 t, ?_⟩
  rw [mem_block]; intro a
  match a with
  | ⟨0, _⟩ =>
    show win0_3.index t (0 : Fin 2) * 600 ≤ (i 0).val ∧ (i 0).val < win0_3.index t (0 : Fin 2) * 600 + win0_3.xsize (grid0.coords t) (0 : Fin 2)
    rw [e30]
    by_cases h16 : t.val < 16
    · rw [xa h16]; omega
    · rw [xb (by omega)]; omega
  | ⟨1, _⟩ =>
    show win0_3.index t (1 : Fin 2) * 128 ≤ (i 1).val ∧ (i 1).val < win0_3.index t (1 : Fin 2) * 128 + win0_3.xsize (grid0.coords t) (1 : Fin 2)
    rw [e31, x1]; omega

/-- The result array after the run: the layer's output of the argument arrays. -/
theorem final (c : Dev nD) :
    (dats m 0 c).arrAt 3 cfg0.N = gcn (V m c main_arg0) (V m c main_arg1) (V m c main_arg2) :=
  (dats m 0 c).arrAt_eq_of_cover 3 _ (fun t _ => written_back m c t) rows_covered

/-- The kernel's run, read: it terminates, faulting nowhere, with the result array at the layer's output of the
    argument arrays and the argument arrays unchanged. -/
theorem run : θ_run defs (onTc (τ := τ) (main (F := Ideal))) ⟨m, fun _ => 0, ρ⟩ fun r => ∀ c : Dev nD,
      r.2.mem ((c.tc : Thread nD τ).loc main_v0)
        = gcn (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 3).trans (final m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c)))⟩)
    (run_exact m ρ)

end Cert.KernelIdeal.Layer

end
-- ==== Proof.RefValue.lean ====
/-
  The reference computes the layer.

  The reference is two matrix products on the host, the second applied to the first's result. Read at an index, the
  outer product is the sum over the nodes of the propagation entry times the inner product's entry, which is the sum
  over the feature columns: the layer's formula, with the generated index functions spelt as coordinate pairs.
-/
import proofs.«178069_g30322469110220_cont_9to1_1671_10_alg».proof.Proof.Gen.ReferenceIdeal.Read
import proofs.«178069_g30322469110220_cont_9to1_1671_10_alg».proof.Proof.Spec

noncomputable section

namespace Cert.ReferenceIdeal.RefValue

open Cert.ReferenceIdeal Cert.ReferenceIdeal.Read Idealize.ShloMosaic Idealize.ShloMosaic.ValueIdx
open scoped BigOperators

theorem reference_is_layer (x0 : (⟨S10000x128, .f32⟩ : BufTy).Contents (Elt Ideal)) (x1 : (⟨S10000x10000, .f32⟩ : BufTy).Contents (Elt Ideal))
    (x2 : (⟨S128x128, .f32⟩ : BufTy).Contents (Elt Ideal)) :
    val_main_v1 (F := Ideal) x0 x1 x2 = Cert.Spec.gcn x0 x1 x2 := by
  funext i
  rw [val_main_v1_apply]
  unfold Cert.Spec.gcn Cert.Spec.support
  refine Finset.sum_congr rfl fun k _ => ?_
  rw [val_main_v0_apply]
  have e1 : lidx_main_v1 i k = ix2 (i 0) k := funext fun a => by
    match a with
    | ⟨0, _⟩ => rfl
    | ⟨1, _⟩ => rfl
  have e2 : ∀ j : Fin 128, lidx_main_v0 (ridx_main_v1 i k) j = ix2 k j := fun j => funext fun a => by
    match a with
    | ⟨0, _⟩ => rfl
    | ⟨1, _⟩ => rfl
  have e3 : ∀ j : Fin 128, ridx_main_v0 (ridx_main_v1 i k) j = ix2 j (i 1) := fun j => funext fun a => by
    match a with
    | ⟨0, _⟩ => rfl
    | ⟨1, _⟩ => rfl
  simp only [e1, e2, e3]
  rfl

end Cert.ReferenceIdeal.RefValue

end
-- ==== Proof.lean ====
/-
  The certificate of a graph-convolution layer: output = P · (x · W), for node features x (10000 × 128), weights W
  (128 × 128) and a dense propagation matrix P (10000 × 10000).

  The kernel streams P in blocks of six hundred rows over seventeen grid points. At the first point it computes the
  support x · W once into a scratch buffer that stays in place; at every point it multiplies the staged rows of P by
  the scratch and the pipeline writes the product back as six hundred rows of the output. The last block overhangs P
  by two hundred rows: its fetch fills, and its write-back writes, only the four hundred rows that exist. The
  reference is the two host products in the same grouping. At the extended reals each matrix product is the textbook
  sum, so both programs compute, entry (r, c), the sum over the nodes k of P(r, k) times the sum over j of
  x(k, j) · W(j, c): one formula, read twice. No algebraic law is needed to join them and the inputs' finiteness is
  never used; the ideal pass rewrote nothing, so its conjunct is trivial.

  The modules: KernelBody / IdealBody (the body run once on whole buffers, at the first point and at a later one);
  KernelPoint / IdealPoint (the pipeline's proof data, the invariant that carries the scratch from point to point,
  the body's obligation at a point, and the frame — termination without fault, the arguments unchanged — with the
  result window's contents left unnamed, at any float instance); IdealEntries (the two products entry by entry);
  IdealExact (the obligation with the result window named: rows past the matrix's end never reach a row that is
  written back); IdealLayer (the seventeen written-back blocks are the layer's output); Spec (the layer);
  RefValue (the reference is the layer); LibPlainMatmul (a matrix product into zero, entry by entry).
-/
import proofs.«178069_g30322469110220_cont_9to1_1671_10_alg».proof.Defs
import proofs.«178069_g30322469110220_cont_9to1_1671_10_alg».proof.Proof.KernelPoint
import proofs.«178069_g30322469110220_cont_9to1_1671_10_alg».proof.Proof.IdealLayer
import proofs.«178069_g30322469110220_cont_9to1_1671_10_alg».proof.Proof.RefValue
import proofs.«178069_g30322469110220_cont_9to1_1671_10_alg».proof.Proof.Gen.Kernel
import proofs.«178069_g30322469110220_cont_9to1_1671_10_alg».proof.Proof.Gen.Kernel.Skeleton
import proofs.«178069_g30322469110220_cont_9to1_1671_10_alg».proof.Proof.Gen.Kernel.Launch
import proofs.«178069_g30322469110220_cont_9to1_1671_10_alg».proof.Proof.Gen.Kernel.Points
import proofs.«178069_g30322469110220_cont_9to1_1671_10_alg».proof.Proof.Gen.Kernel.Frame
import proofs.«178069_g30322469110220_cont_9to1_1671_10_alg».proof.Proof.Gen.KernelIdeal
import proofs.«178069_g30322469110220_cont_9to1_1671_10_alg».proof.Proof.Gen.KernelIdeal.Skeleton
import proofs.«178069_g30322469110220_cont_9to1_1671_10_alg».proof.Proof.Gen.KernelIdeal.Launch
import proofs.«178069_g30322469110220_cont_9to1_1671_10_alg».proof.Proof.Gen.KernelIdeal.Points
import proofs.«178069_g30322469110220_cont_9to1_1671_10_alg».proof.Proof.Gen.KernelIdeal.Frame
import proofs.«178069_g30322469110220_cont_9to1_1671_10_alg».proof.Proof.Gen.ReferenceIdeal
import proofs.«178069_g30322469110220_cont_9to1_1671_10_alg».proof.Proof.Gen.ReferenceIdeal.Run
import proofs.«178069_g30322469110220_cont_9to1_1671_10_alg».proof.Proof.Gen.ReferenceIdeal.Read
import proofs.«178069_g30322469110220_cont_9to1_1671_10_alg».proof.Proof.Gen.Pre_finite_inputs
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_kernel : Cert.frame_Kernel := fun m ρ _ => Cert.Kernel.Point.frame (F := Bits) m ρ

/-- So does the kernel read at the extended reals. -/
theorem frame_kernel_ideal : Cert.frame_KernelIdeal := fun m ρ _ => Cert.KernelIdeal.Point.frame (F := Ideal) m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the three arguments both programs end with the layer's output of those arguments. -/
theorem algebraic : Cert.algebraic_KernelIdeal_ReferenceIdeal := by
  intro m ρ m' ρ' _ hagree
  refine ⟨_, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.reference_is_layer,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
